-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S8x2 : S_.BroadcastsInDim S8x2 (![] : Fin 0 → Fin S8x2.rank)
  reducesTo_S8x2_S_d0_1 : S8x2.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S50000x64 .f32) (main_arg1 : FVec F S2x64x64 .f32) (main_arg2 : FVec F S8x2 .f32) (main_arg3 : FVec F S64 .f32) (main_arg4 : FVec F S64x64 .f32) (main_arg5 : IVec S800000 32) (main_arg6 : IVec S800000 32) (main_arg7 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S8x2 .f32 := Host.absf main_arg2
  let main_cst_2 : FVec F S_ .f32 := constant S_ .f32 0x7F800000#32
  let main_v10 : FVec F S8x2 .f32 := broadcastInDim S8x2 ![] bcast_S_S8x2 main_cst_2
  let main_v11 : IVec S8x2 1 := cmpf .olt main_v9 main_v10
  let main_c_3 : IVec S_ 1 := constantI S_ 1 1#1
  let main_v12 : IVec S_ 1 := (fun x v => Host.reduce IntOp.andi x v reducesTo_S8x2_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S50000x64 : Shape := ⟨2, ![50000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x2 : Shape := ⟨2, ![800000, 2]⟩
abbrev S800000x128 : Shape := ⟨2, ![800000, 128]⟩
abbrev S8000x64 : Shape := ⟨2, ![8000, 64]⟩
abbrev S8000x2 : Shape := ⟨2, ![8000, 2]⟩
abbrev S8000x128 : Shape := ⟨2, ![8000, 128]⟩
abbrev S8000x1 : Shape := ⟨2, ![8000, 1]⟩
abbrev S50000x128 : Shape := ⟨2, ![50000, 128]⟩
abbrev S128x64 : Shape := ⟨2, ![128, 64]⟩
abbrev S1x64 : Shape := ⟨2, ![1, 64]⟩
abbrev S5000x128 : Shape := ⟨2, ![5000, 128]⟩
abbrev S5000x64 : Shape := ⟨2, ![5000, 64]⟩

abbrev nBuf : Space → Nat
  | .hbm => 34
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S2x64x64, .f32⟩
  | .hbm, ⟨2, _⟩ => ⟨S8x2, .f32⟩
  | .hbm, ⟨3, _⟩ => ⟨S64, .f32⟩
  | .hbm, ⟨4, _⟩ => ⟨S64x64, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x2, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S128x64, .f32⟩
  | .hbm, ⟨32, _⟩ => ⟨S1x64, .f32⟩
  | .hbm, ⟨33, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x2, .f32⟩
  | .local _ .vmem, ⟨3, _⟩ => ⟨S8000x2, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S128x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  slices_S8000x2_o0_0_S8000x1 : S8000x2.Slices ![0, 0] S8000x1
  slices_S8000x2_o0_1_S8000x1 : S8000x2.Slices ![0, 1] S8000x1
  broadcasts_S8000x1_S8000x64 : S8000x1.Broadcasts S8000x64
  concatenates_S8000x64_S8000x64_S8000x128_d1 : Shape.Concatenates [S8000x64, S8000x64] S8000x128 1
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  shapeCasts_S2x64x64_S128x64 : S2x64x64.ShapeCasts S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  gather_S8x2_S800000x1_S800000x2_1_0_n_n_0_1_12_wf : GatherDims.WF S8x2 S800000x1 S800000x2 [1] [0] [] [0] [] 1 ![1, 2]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x2.size a ≤ S800000x2.size a
  hwx0_1 : ∀ i : grid0.Coords, EltTy.bits .f32 = 32 ∨ (Rect.block (s := S800000x2) S8000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S800000x128.size a
  hwx0_2 : ∀ i : grid0.Coords, EltTy.bits .f32 = 32 ∨ (Rect.block (s := S800000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S8x2_S800000x1_S800000x2_1_0_n_n_0_1_12 : GatherDims S8x2 S800000x1 S800000x2 where
  offsetDims := [1]
  collapsedSliceDims := [0]
  operandBatchingDims := []
  startIndicesBatchingDims := []
  startIndexMap := [0]
  indexVectorDim := 1
  sliceSizes := ![1, 2]
  wf := gather_S8x2_S800000x1_S800000x2_1_0_n_n_0_1_12_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S800000x2x1 : Shape := ⟨3, ![800000, 2, 1]⟩
abbrev S800000x64 : Shape := ⟨2, ![800000, 64]⟩
abbrev S800000x1x64 : Shape := ⟨3, ![800000, 1, 64]⟩
abbrev S800000x2x64 : Shape := ⟨3, ![800000, 2, 64]⟩
abbrev S800000x128 : Shape := ⟨2, ![800000, 128]⟩
abbrev S50000x128 : Shape := ⟨2, ![50000, 128]⟩
abbrev S128x64 : Shape := ⟨2, ![128, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x64x64, .f32⟩
  | .hbm, ⟨2, _⟩ => ⟨S8x2, .f32⟩
  | .hbm, ⟨3, _⟩ => ⟨S64, .f32⟩
  | .hbm, ⟨4, _⟩ => ⟨S64x64, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x2, .f32⟩
  | .hbm, ⟨17, _⟩ => ⟨S800000x2x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x1x64, .f32⟩
  | .hbm, ⟨28, _⟩ => ⟨S800000x2x64, .f32⟩
  | .hbm, ⟨29, _⟩ => ⟨S800000x2x64, .f32⟩
  | .hbm, ⟨30, _⟩ => ⟨S800000x2x64, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x2_S800000x2x1_0_1 : S800000x2.BroadcastsInDim S800000x2x1 (![0, 1] : Fin 2 → Fin S800000x2x1.rank)
  bcast_S800000x64_S800000x1x64_0_2 : S800000x64.BroadcastsInDim S800000x1x64 (![0, 2] : Fin 2 → Fin S800000x1x64.rank)
  bcast_S800000x2x1_S800000x2x64_0_1_2 : S800000x2x1.BroadcastsInDim S800000x2x64 (![0, 1, 2] : Fin 3 → Fin S800000x2x64.rank)
  bcast_S800000x1x64_S800000x2x64_0_1_2 : S800000x1x64.BroadcastsInDim S800000x2x64 (![0, 1, 2] : Fin 3 → Fin S800000x2x64.rank)
  shapeCasts_S800000x2x64_S800000x128 : S800000x2x64.ShapeCasts S800000x128
  bcast_S_S50000x128 : S_.BroadcastsInDim S50000x128 (![] : Fin 0 → Fin S50000x128.rank)
  shapeCasts_S2x64x64_S128x64 : S2x64x64.ShapeCasts S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S8x2_S800000x1_S800000x2_1_0_n_n_0_1_12_wf : GatherDims.WF S8x2 S800000x1 S800000x2 [1] [0] [] [0] [] 1 ![1, 2]
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S8x2_S800000x1_S800000x2_1_0_n_n_0_1_12 : GatherDims S8x2 S800000x1 S800000x2 where
  offsetDims := [1]
  collapsedSliceDims := [0]
  operandBatchingDims := []
  startIndicesBatchingDims := []
  startIndexMap := [0]
  indexVectorDim := 1
  sliceSizes := ![1, 2]
  wf := gather_S8x2_S800000x1_S800000x2_1_0_n_n_0_1_12_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run, with its result named.

  The program is a line of host operations, a first pipelined region (the per-edge messages), a second line of host
  operations (the scatter-add over destination nodes and two reshapes), and a second pipelined region (the two
  matrix products and the bias). Every buffer that outlives a region is, at the end of every weakly fair execution,
  at the contents the fold of those four segments leaves: the launch memory pushed through the first host line,
  region 0's write-backs, the second host line, and region 1's write-backs. This module states that run with the
  result buffer read at that fold, and the eight arguments as launched.
-/
import proofs.«139369_j10900626997971_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and any property of the final memory that follows from
    "each buffer that outlives the regions holds what the four segments' fold leaves in it" holds at the end. -/
theorem run_fold {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result buffer at the fold's contents and the eight arguments as launched. -/
theorem run_result : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_fold m ρ fun s h c =>
    ⟨h c _ (mem_uc main_v20 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩

end Cert.KernelIdeal.ResultRun

end
-- ==== Proof.MsgBody.lean ====
/-
  Region 0's body at one entry of its block.

  The body loads an [8000, 64] block of gathered source features and an [8000, 2] block of gathered coefficients, and
  stores the [8000, 128] block made of the features scaled by coefficient 0 beside the features scaled by coefficient 1.
  Read at row `r` and column `j`: feature `j % 64` of the row times coefficient `j / 64` of the row.
-/
import proofs.«139369_j10900626997971_2_alg».proof.Proof.Gen.KernelIdeal.Skeleton
import Idealize.ShloMosaic.Lib.Pipeline.Value
import Idealize.ShloMosaic.Lib.ValueIdx

noncomputable section

namespace Cert.KernelIdeal.MsgBody

open Cert.KernelIdeal Cert.KernelIdeal.Gen Idealize.ShloMosaic Idealize.ShloMosaic.ValueIdx

/-- Coefficient column `q` of the block, spread along the 64 feature columns, read at `(r, f)`: the coefficient
    of row `r`. (The slice keeps column `q` as an [8000, 1] column; the broadcast repeats it.) -/
theorem coeff_col (x1 : Vec Ideal S8000x2 .f32) (q : Fin 2) (hs : S8000x2.Slices ![0, q.val] S8000x1)
    (r : Fin 8000) (f : Fin 64) :
    broadcastTo S8000x64 (extractStridedSlice S8000x1 ![0, q.val] (shapeCast S8000x2 x1 shapeCasts_S8000x2_S8000x2) hs)
      broadcasts_S8000x1_S8000x64 (ix2 r f) = x1 (ix2 r q) := by
  rw [shapeCast_self]
  refine (broadcastTo_apply _ broadcasts_S8000x1_S8000x64 (ix2 r f) (ix2 r (0 : Fin 1)) (fun a => match a with
    | ⟨0, _⟩ => by show r.val = if (8000 : Nat) = 1 then 0 else r.val; rw [if_neg (by decide)]
    | ⟨1, _⟩ => by show (0 : Nat) = if (1 : Nat) = 1 then 0 else f.val; rw [if_pos rfl])).trans ?_
  exact extractStridedSlice_apply ![0, q.val] x1 hs (ix2 r (0 : Fin 1)) (ix2 r q) (fun a => match a with
    | ⟨0, _⟩ => by show r.val = 0 + r.val; omega
    | ⟨1, _⟩ => by show q.val = q.val + 0; omega)

/-- The stored block at `(r, j)`: feature `j % 64` times coefficient `j / 64` of row `r` (the two named by
    their values, so that a caller picks the spelling of the two coordinates). -/
theorem pay_at (x0 : Vec Ideal S8000x64 .f32) (x1 : Vec Ideal S8000x2 .f32) (r : Fin 8000) (j : Fin 128)
    (a : Fin 64) (b : Fin 2) (ha : a.val = j.val % 64) (hb : b.val = j.val / 64) :
    k0_pay1 x0 x1 (ix2 r j) = x0 (ix2 r a) * x1 (ix2 r b) := by
  unfold k0_pay1
  by_cases h : j.val < 64
  · -- the left half: columns 0 … 63 are the features scaled by coefficient 0
    have ea : a = ⟨j.val, h⟩ := Fin.ext (by show a.val = j.val; omega)
    have eb : b = (0 : Fin 2) := Fin.ext (by show b.val = 0; omega)
    subst ea eb
    refine (concatenate_pair_apply_left (t := S8000x128) (s₁ := S8000x64) (s₂ := S8000x64) (1 : Fin 2) _ _ _ (ix2 r j) rfl
      (ix2 r (⟨j.val, h⟩ : Fin 64)) (fun b => match b with | ⟨0, _⟩ => rfl | ⟨1, _⟩ => rfl)).trans ?_
    rw [mulf_apply, shapeCast_self]
    exact congrArg (x0 (ix2 r (⟨j.val, h⟩ : Fin 64)) * ·) (coeff_col x1 (0 : Fin 2) _ r _)
  · -- the right half: columns 64 … 127 are the features scaled by coefficient 1
    have hj : j.val < 128 := j.isLt
    have hlt : j.val - 64 < 64 := by clear ha hb; omega
    have ea : a = ⟨j.val - 64, hlt⟩ := Fin.ext (by show a.val = j.val - 64; omega)
    have eb : b = (1 : Fin 2) := Fin.ext (by show b.val = 1; omega)
    subst ea eb
    refine (concatenate_pair_apply_right (t := S8000x128) (s₁ := S8000x64) (s₂ := S8000x64) (1 : Fin 2) _ _ _ (ix2 r j) rfl rfl
      (ix2 r (⟨j.val - 64, hlt⟩ : Fin 64))
      (fun b => match b with | ⟨0, _⟩ => fun _ => rfl | ⟨1, _⟩ => fun hne => absurd rfl hne)
      (by show j.val - 64 + 64 = j.val; omega)).trans ?_
    rw [mulf_apply, shapeCast_self]
    exact congrArg (x0 (ix2 r (⟨j.val - 64, hlt⟩ : Fin 64)) * ·) (coeff_col x1 (1 : Fin 2) _ r _)

end Cert.KernelIdeal.MsgBody

end
-- ==== Proof.Spec.lean ====
/-
  What the relational graph convolution computes, as functions of arrays of extended reals, index by index.

  * The message of edge `e` at column `j` of its 128: basis `j / 64`'s coefficient of the edge times feature
    `j % 64` of the edge's source row. The kernel builds it as the two 64-column halves side by side, the
    reference as a product of two broadcasts reshaped from [E, 2, 64] to [E, 128]: the same entry.
  * The output of node `n` at column `o`: the row of aggregated messages against the reshaped basis weights (a sum
    over 128), the node's own features against the self-loop weights (a sum over 64), and the bias. The kernel
    adds the bias last and the reference adds it second: addition of extended reals is commutative and
    associative, so the order is immaterial, with no finiteness asked.
-/
import Idealize.ShloMosaic.PureOps.Ideal
import Idealize.ShloMosaic.Lib.ValueIdx

noncomputable section

open scoped BigOperators

namespace Cert.RelGraph

open Idealize.ShloMosaic Idealize.ShloMosaic.ValueIdx

/-- Entry `(e, j)` of the messages: coefficient `j / 64` of edge `e` times feature `j % 64` of its source row. -/
def msgAt (fs : (⟨2, ![800000, 64]⟩ : Shape).Idx → EReal) (cc : (⟨2, ![800000, 2]⟩ : Shape).Idx → EReal)
    (e : Fin 800000) (j : Fin 128) : EReal :=
  fs (ix2 e (⟨j.val % 64, Nat.mod_lt _ (by decide)⟩ : Fin 64)) * cc (ix2 e (⟨j.val / 64, by have := j.isLt; omega⟩ : Fin 2))

/-- The messages as one array [800000, 128]. -/
def msgOf (fs : (⟨2, ![800000, 64]⟩ : Shape).Idx → EReal) (cc : (⟨2, ![800000, 2]⟩ : Shape).Idx → EReal) :
    (⟨2, ![800000, 128]⟩ : Shape).Idx → EReal :=
  fun i => msgAt fs cc (i 0) (i 1)

theorem msgOf_ix2 (fs : (⟨2, ![800000, 64]⟩ : Shape).Idx → EReal) (cc : (⟨2, ![800000, 2]⟩ : Shape).Idx → EReal)
    (e : Fin 800000) (j : Fin 128) : msgOf fs cc (ix2 e j) = msgAt fs cc e j := rfl

/-- Entry `(n, o)` of the layer's output, the bias added last: aggregated messages times basis weights, plus own
    features times self-loop weights, plus the bias row. -/
def outAt (agg : (⟨2, ![50000, 128]⟩ : Shape).Idx → EReal) (feat : (⟨2, ![50000, 64]⟩ : Shape).Idx → EReal)
    (wr : (⟨2, ![128, 64]⟩ : Shape).Idx → EReal) (hb : (⟨2, ![1, 64]⟩ : Shape).Idx → EReal)
    (lw : (⟨2, ![64, 64]⟩ : Shape).Idx → EReal) (n : Fin 50000) (o : Fin 64) : EReal :=
  ((∑ k : Fin 128, agg (ix2 n k) * wr (ix2 k o)) + ∑ k : Fin 64, feat (ix2 n k) * lw (ix2 k o)) + hb (ix2 (0 : Fin 1) o)

/-- The output as one array [50000, 64]. -/
def outOf (agg : (⟨2, ![50000, 128]⟩ : Shape).Idx → EReal) (feat : (⟨2, ![50000, 64]⟩ : Shape).Idx → EReal)
    (wr : (⟨2, ![128, 64]⟩ : Shape).Idx → EReal) (hb : (⟨2, ![1, 64]⟩ : Shape).Idx → EReal)
    (lw : (⟨2, ![64, 64]⟩ : Shape).Idx → EReal) : (⟨2, ![50000, 64]⟩ : Shape).Idx → EReal :=
  fun i => outAt agg feat wr hb lw (i 0) (i 1)

theorem outOf_ix2 (agg : (⟨2, ![50000, 128]⟩ : Shape).Idx → EReal) (feat : (⟨2, ![50000, 64]⟩ : Shape).Idx → EReal)
    (wr : (⟨2, ![128, 64]⟩ : Shape).Idx → EReal) (hb : (⟨2, ![1, 64]⟩ : Shape).Idx → EReal)
    (lw : (⟨2, ![64, 64]⟩ : Shape).Idx → EReal) (n : Fin 50000) (o : Fin 64) :
    outOf agg feat wr hb lw (ix2 n o) = outAt agg feat wr hb lw n o := rfl

/-- Adding the bias second or last is the same extended real. -/
theorem bias_second (a l b : EReal) : (a + b) + l = (a + l) + b := add_right_comm a b l

end Cert.RelGraph

end
-- ==== Proof.MsgRegion.lean ====
/-
  Region 0's output array after its 100 grid points: the messages, as one function of the two arrays it reads.

  Point `t` reads rows `8000·t … 8000·t + 7999` of the gathered source features and of the gathered coefficients and
  writes the same rows of the [800000, 128] output; entry `(r, j)` of what it writes is feature `j % 64` times
  coefficient `j / 64` of row `8000·t + r`. Every output row lies in exactly the block of point `row / 8000`, so the
  array ends holding the messages everywhere. Stated for ANY contents `V` the region is entered from.
-/
import proofs.«139369_j10900626997971_2_alg».proof.Proof.Gen.KernelIdeal.Frame
import proofs.«139369_j10900626997971_2_alg».proof.Proof.MsgBody
import proofs.«139369_j10900626997971_2_alg».proof.Proof.Spec
import Idealize.ShloMosaic.Lib.Pipeline.Value

set_option maxRecDepth 16384

noncomputable section

namespace Cert.KernelIdeal.MsgRegion

open Cert.KernelIdeal Cert.KernelIdeal.Gen Idealize.ShloMosaic Idealize.ShloMosaic.TcCoe Idealize.SL.Sem
open Idealize.ShloMosaic.ValueIdx Cert.RelGraph
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps, decided over the 100 points: point `t` takes block `(t, 0)` of each array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One entry of a stored block against one entry of the messages, over plain blocks `x0`, `x1` that are rows
    `8000·T …` of the two arrays: block entry `y` is array entry `i` when `i` is `y` moved down `8000·T` rows. -/
theorem block_entry (fs : (⟨2, ![800000, 64]⟩ : Shape).Idx → EReal) (cc : (⟨2, ![800000, 2]⟩ : Shape).Idx → EReal)
    (x0 : Vec Ideal S8000x64 .f32) (x1 : Vec Ideal S8000x2 .f32) (T : Nat)
    (h0 : ∀ (r : Fin 8000) (a : Fin 64) (e : Fin 800000), e.val = T * 8000 + r.val → x0 (ix2 r a) = fs (ix2 e a))
    (h1 : ∀ (r : Fin 8000) (b : Fin 2) (e : Fin 800000), e.val = T * 8000 + r.val → x1 (ix2 r b) = cc (ix2 e b))
    (r : Fin 8000) (q : Fin 128) (e : Fin 800000) (j : Fin 128) (he : e.val = T * 8000 + r.val) (hj : j.val = q.val) :
    k0_pay1 x0 x1 (ix2 r q) = msgOf fs cc (ix2 e j) := by
  have hq : q.val < 128 := q.isLt
  rw [msgOf_ix2]
  unfold msgAt
  rw [MsgBody.pay_at x0 x1 r q ⟨j.val % 64, Nat.mod_lt _ (by decide)⟩ ⟨j.val / 64, by omega⟩
    (by show j.val % 64 = q.val % 64; rw [hj]) (by show j.val / 64 = q.val / 64; rw [hj]),
    h0 r _ e he, h1 r _ e he]

/-- Window 0's block at point `t` is rows `8000·t …` of the array the region finds at `main_v6`. -/
theorem feat_block (c : Dev nD) (t : Fin cfg0.N) (r : Fin 8000) (a : Fin 64) (e : Fin 800000) (he : e.val = t.val * 8000 + r.val) :
    iblk0 V c 0 t (ix2 r a) = (V c main_v6 : (⟨2, ![800000, 64]⟩ : Shape).Idx → EReal) (ix2 e a) := by
  obtain ⟨e0, e1, -, -, -, -⟩ := idx_facts t
  show V c main_v6 (((cfg0.win 0).blk t).view.emb (ix2 r a)) = V c main_v6 (ix2 e a)
  refine congrArg (V c main_v6) (funext fun d => Fin.ext ?_)
  match d with
  | ⟨0, _⟩ => show win0_0.index t (0 : Fin 2) * 8000 + 1 * r.val = e.val; omega
  | ⟨1, _⟩ => show win0_0.index t (1 : Fin 2) * 64 + 1 * a.val = a.val; omega

/-- Window 1's block at point `t` is rows `8000·t …` of the array the region finds at `main_v13`. -/
theorem coeff_block (c : Dev nD) (t : Fin cfg0.N) (r : Fin 8000) (b : Fin 2) (e : Fin 800000) (he : e.val = t.val * 8000 + r.val) :
    iblk0 V c 1 t (ix2 r b) = (V c main_v13 : (⟨2, ![800000, 2]⟩ : Shape).Idx → EReal) (ix2 e b) := by
  obtain ⟨-, -, e2, e3, -, -⟩ := idx_facts t
  show V c main_v13 (((cfg0.win 1).blk t).view.emb (ix2 r b)) = V c main_v13 (ix2 e b)
  refine congrArg (V c main_v13) (funext fun d => Fin.ext ?_)
  match d with
  | ⟨0, _⟩ => show win0_1.index t (0 : Fin 2) * 8000 + 1 * r.val = e.val; omega
  | ⟨1, _⟩ => show win0_1.index t (1 : Fin 2) * 2 + 1 * b.val = b.val; omega

/-- WHAT POINT `t` WRITES BACK is block `t` of the messages of the two arrays as the region finds them. -/
theorem flushed_eq (c : Dev nD) (t : Fin cfg0.N) :
    (dat0 V c).flushed 2 t = ((cfg0.win 2).blk t).view.read (Elt Ideal) (msgOf (V c main_v6) (V c main_v13)) := by
  show (cfg0.win 2).cut (grid0.coords t) ((dat0 V c).after 2 t) = _
  rw [after0_2]
  unfold out0_2
  rw [View.canon_unit_zero zero_offsets]
  simp only [View.ld_unit_zero (S := S8000x64) zero_offsets, View.ld_unit_zero (S := S8000x2) zero_offsets]
  obtain ⟨-, -, -, -, e4, e5⟩ := idx_facts t
  have ht : t.val < 100 := Nat.lt_of_lt_of_eq t.isLt N_0
  funext y
  obtain ⟨r, q, rfl⟩ : ∃ (r : Fin 8000) (q : Fin 128), y = ix2 r q := ⟨y 0, y 1, eq_ix2 y⟩
  have hr : r.val < 8000 := r.isLt
  show k0_pay1 (iblk0 V c 0 t) (iblk0 V c 1 t) (ix2 r q)
    = msgOf (V c main_v6) (V c main_v13) (((cfg0.win 2).blk t).view.emb (ix2 r q))
  have hemb : ((cfg0.win 2).blk t).view.emb (ix2 r q) = ix2 (⟨t.val * 8000 + r.val, by omega⟩ : Fin 800000) q :=
    funext fun d => Fin.ext (by
      match d with
      | ⟨0, _⟩ => show win0_2.index t (0 : Fin 2) * 8000 + 1 * r.val = t.val * 8000 + r.val; omega
      | ⟨1, _⟩ => show win0_2.index t (1 : Fin 2) * 128 + 1 * q.val = q.val; omega)
  rw [hemb]
  exact block_entry (V c main_v6) (V c main_v13) (iblk0 V c 0 t) (iblk0 V c 1 t) t.val
    (fun r a e he => feat_block V c t r a e he) (fun r b e he => coeff_block V c t r b e he) r q _ q rfl rfl

/-- An index of the output array is in point `t`'s block iff each coordinate is in the block's range on its axis. -/
theorem mem_blk (t : Fin cfg0.N) (i : S800000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v14).slice (win0_2.rect t)).set ↔ _
  rw [View.set_slice_whole, Rect.mem_set_unit]
  exact Iff.rfl

/-- Every index of the output array is in the block of the point its row falls in. -/
theorem cover (i : S800000x128.Idx) : ∃ t : Fin cfg0.N, (cfg0.win 2).flush t = true ∧ i ∈ ((cfg0.win 2).blk t).view.set := by
  have hi0 : (i 0).val < 800000 := (i 0).isLt
  have hi1 : (i 1).val < 128 := (i 1).isLt
  let t : Fin cfg0.N := ⟨(i 0).val / 8000, by show (i 0).val / 8000 < grid0.N; rw [N_0]; omega⟩
  obtain ⟨-, -, -, -, e4, e5⟩ := idx_facts t
  have e4' : win0_2.index t (0 : Fin 2) = (i 0).val / 8000 := e4
  refine ⟨t, flush0_2 t, ?_⟩
  rw [mem_blk]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-- THE ARRAY after the region's 100 points: the messages of the two arrays the region found. -/
theorem final (c : Dev nD) : (dat0 V c).arrAt 2 cfg0.N = msgOf (V c main_v6) (V c main_v13) :=
  (dat0 V c).arrAt_eq_of_cover 2 (msgOf (V c main_v6) (V c main_v13)) (fun t _ => flushed_eq V c t) cover

end Cert.KernelIdeal.MsgRegion

end
-- ==== Proof.FinalBody.lean ====
/-
  Region 1's body at one entry of its block.

  The body loads a [5000, 128] block of aggregated messages, the matching [5000, 64] block of node features, the whole
  [128, 64] basis weights, the [1, 64] bias row and the [64, 64] self-loop weights; it rounds the four matrix operands
  to bf16 (the identity on extended reals), multiplies each pair into a zero accumulator, adds the two products and
  then the bias row repeated down the 5000 rows. Read at row `r` and column `o`: the sum over 128 of messages times
  basis weights, plus the sum over 64 of features times self-loop weights, plus the bias at `o`.
-/
import proofs.«139369_j10900626997971_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.FinalBody

open Cert.KernelIdeal Cert.KernelIdeal.Gen Idealize.ShloMosaic Idealize.ShloMosaic.ValueIdx

/-- The four coordinate facts of this product's operand indices: rows follow the output's row, columns the output's
    column, and the contracted axis of each operand the contraction index's one coordinate. -/
theorem agg_dot_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem agg_dot_lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem agg_dot_rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem agg_dot_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The [5000, 128] × [128, 64] product into a zero accumulator at `(r, o)`: the sum over the one contracted
    axis, re-indexed from the contraction's own index type to `Fin 128`. -/
theorem agg_dot (l : FVec Ideal S5000x128 .bf16) (w : FVec Ideal S128x64 .bf16) (r : Fin 5000) (o : Fin 64) :
    matmul dot_S5000x128_S128x64_S5000x64_1_0_0_1_n_n none l w (constant S5000x64 .f32 0x00000000#32) (ix2 r o)
      = ∑ k : Fin 128, l (ix2 r k) * w (ix2 k o) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r o) ((contrEquiv1 dot_S5000x128_S128x64_S5000x64_1_0_0_1_n_n 128 rfl rfl).symm k) = ix2 r k :=
    funext fun a => Fin.ext (by
      match a with
      | ⟨0, _⟩ => exact agg_dot_lhs0 _ _
      | ⟨1, _⟩ => exact (agg_dot_lhs1 _ _).trans hk)
  have er : dot_S5000x128_S128x64_S5000x64_1_0_0_1_n_n.rhsIdx (ix2 r o) ((contrEquiv1 dot_S5000x128_S128x64_S5000x64_1_0_0_1_n_n 128 rfl rfl).symm k) = ix2 k o :=
    funext fun a => Fin.ext (by
      match a with
      | ⟨0, _⟩ => exact (agg_dot_rhs0 _ _).trans hk
      | ⟨1, _⟩ => exact agg_dot_rhs1 _ _)
  rw [el, er]

/-- The four coordinate facts of this product's operand indices: rows follow the output's row, columns the output's
    column, and the contracted axis of each operand the contraction index's one coordinate. -/
theorem self_dot_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem self_dot_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem self_dot_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem self_dot_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The [5000, 64] × [64, 64] product into a zero accumulator at `(r, o)`, likewise over `Fin 64`. -/
theorem self_dot (l : FVec Ideal S5000x64 .bf16) (w : FVec Ideal S64x64 .bf16) (r : Fin 5000) (o : Fin 64) :
    matmul dot_S5000x64_S64x64_S5000x64_1_0_0_1_n_n none l w (constant S5000x64 .f32 0x00000000#32) (ix2 r o)
      = ∑ k : Fin 64, l (ix2 r k) * w (ix2 k o) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r o) ((contrEquiv1 dot_S5000x64_S64x64_S5000x64_1_0_0_1_n_n 64 rfl rfl).symm k) = ix2 r k :=
    funext fun a => Fin.ext (by
      match a with
      | ⟨0, _⟩ => exact self_dot_lhs0 _ _
      | ⟨1, _⟩ => exact (self_dot_lhs1 _ _).trans hk)
  have er : dot_S5000x64_S64x64_S5000x64_1_0_0_1_n_n.rhsIdx (ix2 r o) ((contrEquiv1 dot_S5000x64_S64x64_S5000x64_1_0_0_1_n_n 64 rfl rfl).symm k) = ix2 k o :=
    funext fun a => Fin.ext (by
      match a with
      | ⟨0, _⟩ => exact (self_dot_rhs0 _ _).trans hk
      | ⟨1, _⟩ => exact self_dot_rhs1 _ _)
  rw [el, er]

/-- The [1, 64] bias row repeated down 5000 rows, read at `(r, o)`: the bias at `o`. -/
theorem bias_row (b : FVec Ideal S1x64 .f32) (r : Fin 5000) (o : Fin 64) :
    broadcastTo S5000x64 b broadcasts_S1x64_S5000x64 (ix2 r o) = b (ix2 (0 : Fin 1) o) :=
  broadcastTo_apply b broadcasts_S1x64_S5000x64 (ix2 r o) (ix2 (0 : Fin 1) o) (fun a => match a with
    | ⟨0, _⟩ => by show (0 : Nat) = if (1 : Nat) = 1 then 0 else r.val; rw [if_pos rfl]
    | ⟨1, _⟩ => by show o.val = if (64 : Nat) = 1 then 0 else o.val; rw [if_neg (by decide)])

/-- The stored block at `(r, o)`. -/
theorem pay_at (v0 : Vec Ideal S5000x128 .f32) (v3 : Vec Ideal S128x64 .f32) (v6 : Vec Ideal S5000x64 .f32)
    (v8 : Vec Ideal S64x64 .f32) (v13 : Vec Ideal S1x64 .f32) (r : Fin 5000) (o : Fin 64) :
    k1_pay1 v0 v3 v6 v8 v13 (ix2 r o)
      = ((∑ k : Fin 128, v0 (ix2 r k) * v3 (ix2 k o)) + ∑ k : Fin 64, v6 (ix2 r k) * v8 (ix2 k o)) + v13 (ix2 (0 : Fin 1) o) := by
  unfold k1_pay1
  rw [shapeCast_self, shapeCast_self, shapeCast_self, addf_apply, addf_apply, agg_dot, self_dot, bias_row]
  rfl

end Cert.KernelIdeal.FinalBody

end
-- ==== Proof.FinalRegion.lean ====
/-
  Region 1's output array after its 10 grid points: the layer's output, as one function of the five arrays it reads.

  Point `t` reads rows `5000·t … 5000·t + 4999` of the aggregated messages and of the node features, and the whole
  of the basis weights, the bias row and the self-loop weights (their index maps stay at block 0); it writes the same
  rows of the [50000, 64] output. Entry `(r, o)` of what it writes is the output of node `5000·t + r` at column
  `o`. Every output row lies in the block of point `row / 5000`, so the array ends holding the output everywhere.
  Stated for ANY contents `V` the region is entered from.
-/
import proofs.«139369_j10900626997971_2_alg».proof.Proof.Gen.KernelIdeal.Frame
import proofs.«139369_j10900626997971_2_alg».proof.Proof.FinalBody
import proofs.«139369_j10900626997971_2_alg».proof.Proof.Spec
import Idealize.ShloMosaic.Lib.Pipeline.Value

set_option maxRecDepth 16384

noncomputable section

open scoped BigOperators

namespace Cert.KernelIdeal.FinalRegion

open Cert.KernelIdeal Cert.KernelIdeal.Gen Idealize.ShloMosaic Idealize.ShloMosaic.TcCoe Idealize.SL.Sem
open Idealize.ShloMosaic.ValueIdx Cert.RelGraph
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The six index maps, decided over the 10 points: the row-blocked windows take block `(t, 0)`, the three whole
    operands block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of a stored block against one entry of the output, over plain blocks: `x0`, `x1` rows `5000·T …`
    of the aggregated messages and of the features, `x2`, `x3`, `x4` the three whole operands. -/
theorem block_entry (agg : (⟨2, ![50000, 128]⟩ : Shape).Idx → EReal) (feat : (⟨2, ![50000, 64]⟩ : Shape).Idx → EReal)
    (wr : (⟨2, ![128, 64]⟩ : Shape).Idx → EReal) (hb : (⟨2, ![1, 64]⟩ : Shape).Idx → EReal)
    (lw : (⟨2, ![64, 64]⟩ : Shape).Idx → EReal)
    (x0 : Vec Ideal S5000x128 .f32) (x1 : Vec Ideal S5000x64 .f32) (x2 : Vec Ideal S128x64 .f32)
    (x3 : Vec Ideal S1x64 .f32) (x4 : Vec Ideal S64x64 .f32) (T : Nat)
    (h0 : ∀ (r : Fin 5000) (n : Fin 50000), n.val = T * 5000 + r.val → ∀ k : Fin 128, x0 (ix2 r k) = agg (ix2 n k))
    (h1 : ∀ (r : Fin 5000) (n : Fin 50000), n.val = T * 5000 + r.val → ∀ k : Fin 64, x1 (ix2 r k) = feat (ix2 n k))
    (h2 : ∀ (k : Fin 128) (o : Fin 64), x2 (ix2 k o) = wr (ix2 k o))
    (h3 : ∀ (z : Fin 1) (o : Fin 64), x3 (ix2 z o) = hb (ix2 z o))
    (h4 : ∀ (k : Fin 64) (o : Fin 64), x4 (ix2 k o) = lw (ix2 k o))
    (r : Fin 5000) (o : Fin 64) (n : Fin 50000) (hn : n.val = T * 5000 + r.val) :
    k1_pay1 x0 x2 x1 x4 x3 (ix2 r o) = outOf agg feat wr hb lw (ix2 n o) := by
  rw [outOf_ix2]
  unfold outAt
  rw [FinalBody.pay_at]
  simp only [h0 r n hn, h1 r n hn, h2, h3, h4]

/-- Window 0's block at point `t` is rows `5000·t …` of the array the region finds at `main_v17`. -/
theorem agg_block (c : Dev nD) (t : Fin cfg1.N) (r : Fin 5000) (n : Fin 50000) (hn : n.val = t.val * 5000 + r.val) (k : Fin 128) :
    iblk1 V c 0 t (ix2 r k) = (V c main_v17 : (⟨2, ![50000, 128]⟩ : Shape).Idx → EReal) (ix2 n k) := by
  obtain ⟨e0, e1, -⟩ := idx_facts t
  show V c main_v17 (((cfg1.win 0).blk t).view.emb (ix2 r k)) = V c main_v17 (ix2 n k)
  refine congrArg (V c main_v17) (funext fun d => Fin.ext ?_)
  match d with
  | ⟨0, _⟩ => show win1_0.index t (0 : Fin 2) * 5000 + 1 * r.val = n.val; omega
  | ⟨1, _⟩ => show win1_0.index t (1 : Fin 2) * 128 + 1 * k.val = k.val; omega

/-- Window 1's block at point `t` is rows `5000·t …` of the node features. -/
theorem feat_block (c : Dev nD) (t : Fin cfg1.N) (r : Fin 5000) (n : Fin 50000) (hn : n.val = t.val * 5000 + r.val) (k : Fin 64) :
    iblk1 V c 1 t (ix2 r k) = (V c main_arg0 : (⟨2, ![50000, 64]⟩ : Shape).Idx → EReal) (ix2 n k) := by
  obtain ⟨-, -, e2, e3, -⟩ := idx_facts t
  show V c main_arg0 (((cfg1.win 1).blk t).view.emb (ix2 r k)) = V c main_arg0 (ix2 n k)
  refine congrArg (V c main_arg0) (funext fun d => Fin.ext ?_)
  match d with
  | ⟨0, _⟩ => show win1_1.index t (0 : Fin 2) * 5000 + 1 * r.val = n.val; omega
  | ⟨1, _⟩ => show win1_1.index t (1 : Fin 2) * 64 + 1 * k.val = k.val; omega

/-- Window 2's block at every point is the whole reshaped basis weights. -/
theorem wr_block (c : Dev nD) (t : Fin cfg1.N) (k : Fin 128) (o : Fin 64) :
    iblk1 V c 2 t (ix2 k o) = (V c main_v18 : (⟨2, ![128, 64]⟩ : Shape).Idx → EReal) (ix2 k o) := by
  obtain ⟨-, -, -, -, e4, e5, -⟩ := idx_facts t
  show V c main_v18 (((cfg1.win 2).blk t).view.emb (ix2 k o)) = V c main_v18 (ix2 k o)
  refine congrArg (V c main_v18) (funext fun d => Fin.ext ?_)
  match d with
  | ⟨0, _⟩ => show win1_2.index t (0 : Fin 2) * 128 + 1 * k.val = k.val; omega
  | ⟨1, _⟩ => show win1_2.index t (1 : Fin 2) * 64 + 1 * o.val = o.val; omega

/-- Window 3's block at every point is the whole bias row. -/
theorem bias_block (c : Dev nD) (t : Fin cfg1.N) (z : Fin 1) (o : Fin 64) :
    iblk1 V c 3 t (ix2 z o) = (V c main_v19 : (⟨2, ![1, 64]⟩ : Shape).Idx → EReal) (ix2 z o) := by
  obtain ⟨-, -, -, -, -, -, e6, e7, -⟩ := idx_facts t
  show V c main_v19 (((cfg1.win 3).blk t).view.emb (ix2 z o)) = V c main_v19 (ix2 z o)
  refine congrArg (V c main_v19) (funext fun d => Fin.ext ?_)
  match d with
  | ⟨0, _⟩ => show win1_3.index t (0 : Fin 2) * 1 + 1 * z.val = z.val; omega
  | ⟨1, _⟩ => show win1_3.index t (1 : Fin 2) * 64 + 1 * o.val = o.val; omega

/-- Window 4's block at every point is the whole self-loop weights. -/
theorem loop_block (c : Dev nD) (t : Fin cfg1.N) (k : Fin 64) (o : Fin 64) :
    iblk1 V c 4 t (ix2 k o) = (V c main_arg4 : (⟨2, ![64, 64]⟩ : Shape).Idx → EReal) (ix2 k o) := by
  obtain ⟨-, -, -, -, -, -, -, -, e8, e9, -⟩ := idx_facts t
  show V c main_arg4 (((cfg1.win 4).blk t).view.emb (ix2 k o)) = V c main_arg4 (ix2 k o)
  refine congrArg (V c main_arg4) (funext fun d => Fin.ext ?_)
  match d with
  | ⟨0, _⟩ => show win1_4.index t (0 : Fin 2) * 64 + 1 * k.val = k.val; omega
  | ⟨1, _⟩ => show win1_4.index t (1 : Fin 2) * 64 + 1 * o.val = o.val; omega

/-- WHAT POINT `t` WRITES BACK is block `t` of the output of the five arrays as the region finds them. -/
theorem flushed_eq (c : Dev nD) (t : Fin cfg1.N) :
    (dat1 V c).flushed 5 t = ((cfg1.win 5).blk t).view.read (Elt Ideal)
      (outOf (V c main_v17) (V c main_arg0) (V c main_v18) (V c main_v19) (V c main_arg4)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S5000x64) zero_offsets,
    View.ld_unit_zero (S := S128x64) zero_offsets, View.ld_unit_zero (S := S1x64) zero_offsets,
    View.ld_unit_zero (S := S64x64) zero_offsets]
  obtain ⟨-, -, -, -, -, -, -, -, -, -, e10, e11⟩ := idx_facts t
  have ht : t.val < 10 := Nat.lt_of_lt_of_eq t.isLt N_1
  funext y
  obtain ⟨r, o, rfl⟩ : ∃ (r : Fin 5000) (o : Fin 64), y = ix2 r o := ⟨y 0, y 1, eq_ix2 y⟩
  have hr : r.val < 5000 := r.isLt
  show k1_pay1 (iblk1 V c 0 t) (iblk1 V c 2 t) (iblk1 V c 1 t) (iblk1 V c 4 t) (iblk1 V c 3 t) (ix2 r o)
    = outOf (V c main_v17) (V c main_arg0) (V c main_v18) (V c main_v19) (V c main_arg4) (((cfg1.win 5).blk t).view.emb (ix2 r o))
  have hemb : ((cfg1.win 5).blk t).view.emb (ix2 r o) = ix2 (⟨t.val * 5000 + r.val, by omega⟩ : Fin 50000) o :=
    funext fun d => Fin.ext (by
      match d with
      | ⟨0, _⟩ => show win1_5.index t (0 : Fin 2) * 5000 + 1 * r.val = t.val * 5000 + r.val; omega
      | ⟨1, _⟩ => show win1_5.index t (1 : Fin 2) * 64 + 1 * o.val = o.val; omega)
  rw [hemb]
  exact block_entry (V c main_v17) (V c main_arg0) (V c main_v18) (V c main_v19) (V c main_arg4)
    (iblk1 V c 0 t) (iblk1 V c 1 t) (iblk1 V c 2 t) (iblk1 V c 3 t) (iblk1 V c 4 t) t.val
    (fun r n hn k => agg_block V c t r n hn k) (fun r n hn k => feat_block V c t r n hn k)
    (fun k o => wr_block V c t k o) (fun z o => bias_block V c t z o) (fun k o => loop_block V c t k o) r o _ rfl

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v20).slice (win1_5.rect t)).set ↔ _
  rw [View.set_slice_whole, Rect.mem_set_unit]
  exact Iff.rfl

/-- Every index of the output array is in the block of the point its row falls in. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 5000, by show (i 0).val / 5000 < grid1.N; rw [N_1]; omega⟩
  obtain ⟨-, -, -, -, -, -, -, -, -, -, e10, e11⟩ := idx_facts t
  have e10' : win1_5.index t (0 : Fin 2) = (i 0).val / 5000 := e10
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE ARRAY after the region's 10 points: the output of the five arrays the region found. -/
theorem final (c : Dev nD) : (dat1 V c).arrAt 5 cfg1.N
    = outOf (V c main_v17) (V c main_arg0) (V c main_v18) (V c main_v19) (V c main_arg4) :=
  (dat1 V c).arrAt_eq_of_cover 5 (outOf (V c main_v17) (V c main_arg0) (V c main_v18) (V c main_v19) (V c main_arg4))
    (fun t _ => flushed_eq V c t) cover

end Cert.KernelIdeal.FinalRegion

end
-- ==== Proof.KernelTerm.lean ====
/-
  The idealized kernel's result as one function of its eight argument arrays.

  Host operations gather the source row of every edge out of the node features (an index below zero wraps by the
  number of nodes first) and the edge type's row out of the coefficient table (wrapping by the number of types);
  region 0 turns the two into the messages; a host scatter-add sums the messages of the edges that share a
  destination node into a zero array; the basis weights are reshaped [2, 64, 64] → [128, 64] and the bias
  [64] → [1, 64]; region 1 produces the output. The gathers and the scatter-add are carried as they are printed:
  the reference applies the same operations to the same operands, so nothing here ever opens them.
-/
import proofs.«139369_j10900626997971_2_alg».proof.KernelIdeal
import proofs.«139369_j10900626997971_2_alg».proof.Proof.Gen.KernelIdeal
import proofs.«139369_j10900626997971_2_alg».proof.Proof.Spec

noncomputable section

namespace Cert.KernelIdeal.Term

open Cert.KernelIdeal Cert.KernelIdeal.Gen Idealize.ShloMosaic Cert.RelGraph

/-- The source features of every edge: row `src[e]` (wrapped) of the node features. -/
def featSrc (x0 : (⟨S50000x64, .f32⟩ : BufTy).Contents (Elt Ideal)) (x5 : (⟨S800000, .i32⟩ : BufTy).Contents (Elt Ideal)) :
    (⟨S800000x64, .f32⟩ : BufTy).Contents (Elt Ideal) :=
  Host.gather gather_S50000x64_S800000x1_S800000x64_1_0_n_n_0_1_164 x0
    (broadcastInDim S800000x1 ![0] bcast_S800000_S800000x1_0
      (select (cmpi .slt x5 (broadcastInDim S800000 ![] bcast_S_S800000 (constantI S_ 32 0#32)))
        (addi x5 (broadcastInDim S800000 ![] bcast_S_S800000 (constantI S_ 32 50000#32))) x5))

/-- The basis coefficients of every edge: row `etypes[e]` (wrapped) of the coefficient table. -/
def coeffOf (x2 : (⟨S8x2, .f32⟩ : BufTy).Contents (Elt Ideal)) (x7 : (⟨S800000, .i32⟩ : BufTy).Contents (Elt Ideal)) :
    (⟨S800000x2, .f32⟩ : BufTy).Contents (Elt Ideal) :=
  Host.gather gather_S8x2_S800000x1_S800000x2_1_0_n_n_0_1_12 x2
    (broadcastInDim S800000x1 ![0] bcast_S800000_S800000x1_0
      (select (cmpi .slt x7 (broadcastInDim S800000 ![] bcast_S_S800000 (constantI S_ 32 0#32)))
        (addi x7 (broadcastInDim S800000 ![] bcast_S_S800000 (constantI S_ 32 8#32))) x7))

/-- The messages summed per destination node into a zero array. -/
def aggOf (x6 : (⟨S800000, .i32⟩ : BufTy).Contents (Elt Ideal)) (msg : (⟨S800000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x6) msg

/-- The kernel's result of its eight arguments. -/
def result (x0 : (⟨S50000x64, .f32⟩ : BufTy).Contents (Elt Ideal)) (x1 : (⟨S2x64x64, .f32⟩ : BufTy).Contents (Elt Ideal))
    (x2 : (⟨S8x2, .f32⟩ : BufTy).Contents (Elt Ideal)) (x3 : (⟨S64, .f32⟩ : BufTy).Contents (Elt Ideal))
    (x4 : (⟨S64x64, .f32⟩ : BufTy).Contents (Elt Ideal)) (x5 x6 x7 : (⟨S800000, .i32⟩ : BufTy).Contents (Elt Ideal)) :
    (⟨S50000x64, .f32⟩ : BufTy).Contents (Elt Ideal) :=
  outOf (aggOf x6 (msgOf (featSrc x0 x5) (coeffOf x2 x7))) x0 (shapeCast S128x64 x1 shapeCasts_S2x64x64_S128x64)
    (shapeCast S1x64 x3 shapeCasts_S64_S1x64) x4

end Cert.KernelIdeal.Term

end
-- ==== Proof.HostFold.lean ====
/-
  The contents the two regions are entered from, read back through the host operations before them.

  Region 0 finds, at its two input arrays, the two gathers of the launch memory's arguments. Region 1 finds the
  scatter-add of region 0's output array, the node features and the self-loop weights as launched, and the two
  reshaped arguments: no host operation and no region writes an argument, so the fold at an argument's buffer walks
  back to the launch memory.
-/
import proofs.«139369_j10900626997971_2_alg».proof.Proof.Gen.KernelIdeal.Frame
import proofs.«139369_j10900626997971_2_alg».proof.Proof.KernelTerm
import Idealize.ShloMosaic.Lib.StableHlo.Run

set_option maxRecDepth 16384

noncomputable section

namespace Cert.KernelIdeal.HostFold

open Cert.KernelIdeal Cert.KernelIdeal.Gen Idealize.ShloMosaic Idealize.ShloMosaic.TcCoe Idealize.SL.Sem
open Idealize.ShloMosaic.StableHlo Cert.KernelIdeal.Term

variable (m : (ℓ : Loc nD τ sig) → Buf (Elt Ideal) ℓ) (ρ : Dev nD → PrngReg)

/-- Region 0 finds the gathered source features at its first input array. -/
theorem entry0_feat (c : Dev nD) :
    V1 m ρ c main_v6 = featSrc (m ((c.tc : Thread nD τ).loc main_arg0)) (m ((c.tc : Thread nD τ).loc main_arg5)) := by
  show StableHlo.after hostOps0 (W0 m ρ c) (Proc.devRef .tc main_v6) = _
  after_results
  rfl

/-- Region 0 finds the gathered coefficients at its second input array. -/
theorem entry0_coeff (c : Dev nD) :
    V1 m ρ c main_v13 = coeffOf (m ((c.tc : Thread nD τ).loc main_arg2)) (m ((c.tc : Thread nD τ).loc main_arg7)) := by
  show StableHlo.after hostOps0 (W0 m ρ c) (Proc.devRef .tc main_v13) = _
  after_results
  rfl

/-- After region 0 an argument's buffer is as launched (it is none of the region's three arrays, and the host
    operations before the region write none). -/
theorem exit0_arg (c : Dev nD) (b : Ref sig .tc) (hb : ∀ w, Pipeline.arrRef spec0 w ≠ b)
    (h0 : StableHlo.after hostOps0 (W0 m ρ c) (Proc.devRef .tc b) = m ((c.tc : Thread nD τ).loc b)) :
    W2 m ρ c (Proc.devRef .tc b) = m ((c.tc : Thread nD τ).loc b) :=
  (W2_of_ne m ρ c b hb).trans h0

theorem exit0_arg0 (c : Dev nD) : W2 m ρ c (Proc.devRef .tc main_arg0) = m ((c.tc : Thread nD τ).loc main_arg0) :=
  exit0_arg m ρ c main_arg0 (by decide) (by after_results)
theorem exit0_arg1 (c : Dev nD) : W2 m ρ c (Proc.devRef .tc main_arg1) = m ((c.tc : Thread nD τ).loc main_arg1) :=
  exit0_arg m ρ c main_arg1 (by decide) (by after_results)
theorem exit0_arg3 (c : Dev nD) : W2 m ρ c (Proc.devRef .tc main_arg3) = m ((c.tc : Thread nD τ).loc main_arg3) :=
  exit0_arg m ρ c main_arg3 (by decide) (by after_results)
theorem exit0_arg4 (c : Dev nD) : W2 m ρ c (Proc.devRef .tc main_arg4) = m ((c.tc : Thread nD τ).loc main_arg4) :=
  exit0_arg m ρ c main_arg4 (by decide) (by after_results)
theorem exit0_arg6 (c : Dev nD) : W2 m ρ c (Proc.devRef .tc main_arg6) = m ((c.tc : Thread nD τ).loc main_arg6) :=
  exit0_arg m ρ c main_arg6 (by decide) (by after_results)

/-- Region 1 finds, at its first input array, the scatter-add of region 0's output array by the destinations. -/
theorem entry1_agg (c : Dev nD) :
    V3 m ρ c main_v17 = aggOf (m ((c.tc : Thread nD τ).loc main_arg6)) ((dat0 (V1 m ρ) c).arrAt 2 cfg0.N) := by
  show StableHlo.after hostOps1 (W2 m ρ c) (Proc.devRef .tc main_v17) = _
  after_results
  rw [exit0_arg6 m ρ c, W2_arr m ρ c 2]
  rfl

/-- Region 1 finds the node features as launched. -/
theorem entry1_feat (c : Dev nD) : V3 m ρ c main_arg0 = m ((c.tc : Thread nD τ).loc main_arg0) := by
  show StableHlo.after hostOps1 (W2 m ρ c) (Proc.devRef .tc main_arg0) = _
  after_results
  exact exit0_arg0 m ρ c

/-- Region 1 finds the self-loop weights as launched. -/
theorem entry1_loop (c : Dev nD) : V3 m ρ c main_arg4 = m ((c.tc : Thread nD τ).loc main_arg4) := by
  show StableHlo.after hostOps1 (W2 m ρ c) (Proc.devRef .tc main_arg4) = _
  after_results
  exact exit0_arg4 m ρ c

/-- Region 1 finds the basis weights reshaped [2, 64, 64] → [128, 64]. -/
theorem entry1_wr (c : Dev nD) :
    V3 m ρ c main_v18 = shapeCast S128x64 (m ((c.tc : Thread nD τ).loc main_arg1)) shapeCasts_S2x64x64_S128x64 := by
  show StableHlo.after hostOps1 (W2 m ρ c) (Proc.devRef .tc main_v18) = _
  after_results
  rw [exit0_arg1 m ρ c]
  rfl

/-- Region 1 finds the bias reshaped [64] → [1, 64]. -/
theorem entry1_bias (c : Dev nD) :
    V3 m ρ c main_v19 = shapeCast S1x64 (m ((c.tc : Thread nD τ).loc main_arg3)) shapeCasts_S64_S1x64 := by
  show StableHlo.after hostOps1 (W2 m ρ c) (Proc.devRef .tc main_v19) = _
  after_results
  rw [exit0_arg3 m ρ c]
  rfl

end Cert.KernelIdeal.HostFold

end
-- ==== Proof.KernelValue.lean ====
/-
  The idealized kernel's run with its result as one function of the eight arguments.

  The result buffer is region 1's output array; that array is the layer's output of what region 1 was entered from;
  what it was entered from is the scatter-add of region 0's output array, two arguments as launched and two
  arguments reshaped; region 0's output array is the messages of what region 0 was entered from, the two gathers of
  the launch memory.
-/
import proofs.«139369_j10900626997971_2_alg».proof.Proof.KernelRun
import proofs.«139369_j10900626997971_2_alg».proof.Proof.MsgRegion
import proofs.«139369_j10900626997971_2_alg».proof.Proof.FinalRegion
import proofs.«139369_j10900626997971_2_alg».proof.Proof.HostFold

set_option maxRecDepth 16384

noncomputable section

namespace Cert.KernelIdeal.ResultValue

open Cert.KernelIdeal Cert.KernelIdeal.Gen Idealize.ShloMosaic Idealize.ShloMosaic.TcCoe Idealize.SL.Sem
open Cert.KernelIdeal.Term

variable (m : (ℓ : Loc nD τ sig) → Buf (Elt Ideal) ℓ) (ρ : Dev nD → PrngReg)

/-- What the four segments' fold leaves in the result buffer. -/
theorem result_fold (c : Dev nD) :
    W4 m ρ c (Proc.devRef .tc main_v20)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (W4_arr m ρ c 5).trans ?_
  rw [FinalRegion.final (V3 m ρ) c, HostFold.entry1_agg m ρ c, HostFold.entry1_feat m ρ c, HostFold.entry1_wr m ρ c,
    HostFold.entry1_bias m ρ c, HostFold.entry1_loop m ρ c, MsgRegion.final (V1 m ρ) c, HostFold.entry0_feat m ρ c,
    HostFold.entry0_coeff m ρ c]
  rfl

/-- Every weakly fair execution of the idealized kernel terminates without a fault, its result that function of
    the arguments as launched, the arguments unchanged. -/
theorem run : θ_run defs (onTc (τ := τ) (main (F := Ideal))) ⟨m, fun _ => 0, ρ⟩ (fun r => ∀ c : Dev nD,
      r.2.mem ((c.tc : Thread nD τ).loc main_v20)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_fold m ρ c), (h c).2⟩) (ResultRun.run_result m ρ)

end Cert.KernelIdeal.ResultValue

end
-- ==== Proof.RefBridge.lean ====
/-
  The reference's result is the kernel's function of the eight arguments.

  Stage by stage through the reference's own operations: its two gathers are the kernel's two gathers (the same
  operation on the same operands); its product of the two broadcasts, reshaped [E, 2, 64] → [E, 128], is at entry
  `(e, j)` coefficient `j / 64` times feature `j % 64` of edge `e` — the kernel's message with the two factors
  in the other order; its scatter-add is then the kernel's; each `dot_general` is the sum over its contracted axis;
  and it adds the bias before the self-loop product where the kernel adds it after.
-/
import proofs.«139369_j10900626997971_2_alg».proof.Proof.Gen.ReferenceIdeal.Read
import proofs.«139369_j10900626997971_2_alg».proof.Proof.KernelTerm
import proofs.«139369_j10900626997971_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RelGraph

variable (x0 : (⟨S50000x64, .f32⟩ : BufTy).Contents (Elt Ideal)) (x1 : (⟨S2x64x64, .f32⟩ : BufTy).Contents (Elt Ideal))
  (x2 : (⟨S8x2, .f32⟩ : BufTy).Contents (Elt Ideal)) (x3 : (⟨S64, .f32⟩ : BufTy).Contents (Elt Ideal))
  (x4 : (⟨S64x64, .f32⟩ : BufTy).Contents (Elt Ideal)) (x5 x6 x7 : (⟨S800000, .i32⟩ : BufTy).Contents (Elt Ideal))

/-- The reference's gather of source rows is the kernel's. -/
theorem gather_feat : val_main_v14 (F := Ideal) x0 x5 = Cert.KernelIdeal.Term.featSrc x0 x5 := by
  unfold val_main_v14 val_main_v13 val_main_v12 val_main_v9 val_main_v11 val_main_v8 val_main_v10 val_main_c_1 val_main_c_2
    Cert.KernelIdeal.Term.featSrc
  rfl

/-- The reference's gather of coefficient rows is the kernel's. -/
theorem gather_coeff : val_main_v6 (F := Ideal) x2 x7 = Cert.KernelIdeal.Term.coeffOf x2 x7 := by
  unfold val_main_v6 val_main_v5 val_main_v4 val_main_v1 val_main_v3 val_main_v0 val_main_v2 val_main_c val_main_c_0
    Cert.KernelIdeal.Term.coeffOf
  rfl

/-- The reference's reshaped product of broadcasts is the messages of the two gathers. -/
theorem messages : val_main_v19 (F := Ideal) x0 x2 x5 x7
    = msgOf (Cert.KernelIdeal.Term.featSrc x0 x5) (Cert.KernelIdeal.Term.coeffOf x2 x7) := by
  funext i
  obtain ⟨e, j, rfl⟩ : ∃ (e : Fin 800000) (j : Fin 128), i = ix2 e j := ⟨i 0, i 1, eq_ix2 i⟩
  have he : e.val < 800000 := e.isLt
  have hj : j.val < 128 := j.isLt
  rw [val_main_v19_apply, val_main_v18_apply, val_main_v16_apply, val_main_v7_apply, val_main_v17_apply, val_main_v15_apply,
    gather_feat, gather_coeff, msgOf_ix2]
  unfold msgAt
  have ec : idx_main_v7 (idx_main_v16 (idx_main_v19 (ix2 e j))) = ix2 e (⟨j.val / 64, by omega⟩ : Fin 2) :=
    funext fun a => Fin.ext (by
      match a with
      | ⟨0, _⟩ => show (e.val * 128 + j.val) / 128 = e.val; omega
      | ⟨1, _⟩ => show (e.val * 128 + j.val) / 64 % 2 = j.val / 64; omega)
  have ef : idx_main_v15 (idx_main_v17 (idx_main_v19 (ix2 e j))) = ix2 e (⟨j.val % 64, Nat.mod_lt _ (by decide)⟩ : Fin 64) :=
    funext fun a => Fin.ext (by
      match a with
      | ⟨0, _⟩ => show (e.val * 128 + j.val) / 128 = e.val; omega
      | ⟨1, _⟩ => show (e.val * 128 + j.val) % 64 = j.val % 64; omega)
  rw [ec, ef]
  exact mul_comm _ _

/-- The reference's scatter-add is the kernel's, of the same messages. -/
theorem aggregated : val_main_v22 (F := Ideal) x0 x2 x5 x6 x7
    = Cert.KernelIdeal.Term.aggOf x6 (msgOf (Cert.KernelIdeal.Term.featSrc x0 x5) (Cert.KernelIdeal.Term.coeffOf x2 x7)) := by
  unfold val_main_v22
  rw [messages]
  unfold val_main_v20 val_main_v21 val_main_cst Cert.KernelIdeal.Term.aggOf
  rfl

/-- The reference's result is the kernel's function of the eight arguments. -/
theorem result_eq : val_main_v29 (F := Ideal) x0 x1 x2 x3 x4 x5 x6 x7 = Cert.KernelIdeal.Term.result x0 x1 x2 x3 x4 x5 x6 x7 := by
  funext i
  obtain ⟨n, o, rfl⟩ : ∃ (n : Fin 50000) (o : Fin 64), i = ix2 n o := ⟨i 0, i 1, eq_ix2 i⟩
  rw [val_main_v29_apply, val_main_v27_apply, val_main_v24_apply, val_main_v26_apply, val_main_v25_apply, val_main_v28_apply,
    aggregated]
  unfold Cert.KernelIdeal.Term.result
  rw [outOf_ix2]
  unfold outAt
  have el (k : Fin 128) : lidx_main_v24 (ix2 n o) k = ix2 n k :=
    funext fun a => by match a with | ⟨0, _⟩ => rfl | ⟨1, _⟩ => rfl
  have er (k : Fin 128) : ridx_main_v24 (ix2 n o) k = ix2 k o :=
    funext fun a => by match a with | ⟨0, _⟩ => rfl | ⟨1, _⟩ => rfl
  have el' (k : Fin 64) : lidx_main_v28 (ix2 n o) k = ix2 n k :=
    funext fun a => by match a with | ⟨0, _⟩ => rfl | ⟨1, _⟩ => rfl
  have er' (k : Fin 64) : ridx_main_v28 (ix2 n o) k = ix2 k o :=
    funext fun a => by match a with | ⟨0, _⟩ => rfl | ⟨1, _⟩ => rfl
  have eb : idx_main_v25 (idx_main_v26 (ix2 n o)) = ix1 o :=
    funext fun a => by match a with | ⟨0, _⟩ => rfl
  have hbias : shapeCast Cert.KernelIdeal.S1x64 x3 Cert.KernelIdeal.Facts₀.shapeCasts_S64_S1x64 (ix2 (0 : Fin 1) o) = x3 (ix1 o) :=
    shapeCast_apply x3 _ (ix2 (0 : Fin 1) o) (ix1 o)
      (by rewrite [Shape.rowMajor_val_one, Shape.rowMajor_val_two]; show o.val = 0 * 64 + o.val; omega)
  simp only [el, er, el', er', eb]
  rw [hbias]
  exact bias_second _ _ _

end Cert.ReferenceIdeal.RefValue

end
-- ==== Proof.lean ====
/-
  The certificate of a relational graph convolution (basis-regularised R-GCN message passing): a two-region Pallas
  kernel against its jnp reference, equal over the extended reals.

  Both programs gather each edge's source features and its relation's two basis coefficients, form the 128-wide
  message `coefficient b × feature f` at column `64·b + f`, sum the messages of the edges sharing a destination node
  (one host scatter-add, the same in both), and return `agg · W_r + feat · W_loop + bias`. They differ in two places,
  neither of which needs a finite input: the kernel multiplies feature by coefficient and the reference coefficient
  by feature (multiplication of extended reals is commutative), and the kernel adds the bias after the self-loop
  product where the reference adds it before (addition is commutative and associative). The kernel's rounding of its
  matrix operands to bf16 is the identity on extended reals, and its block-by-block products into a zero accumulator
  are, entry by entry, the reference's whole `dot_general`s.

  The three frames: the two kernels' are generated; the reference's is its generated run with the result dropped.
  The ideal pass rewrote nothing, so `preserves` is trivial. `algebraic`: the kernel's run with its result named
  (Proof/KernelValue.lean) beside the reference's generated run, the reference's term rewritten to the kernel's
  function of the arguments (Proof/RefBridge.lean).
-/
import proofs.«139369_j10900626997971_2_alg».proof.Defs
import proofs.«139369_j10900626997971_2_alg».proof.Proof.Gen.Kernel
import proofs.«139369_j10900626997971_2_alg».proof.Proof.Gen.Kernel.Frame
import proofs.«139369_j10900626997971_2_alg».proof.Proof.Gen.KernelIdeal
import proofs.«139369_j10900626997971_2_alg».proof.Proof.Gen.KernelIdeal.Frame
import proofs.«139369_j10900626997971_2_alg».proof.Proof.Gen.ReferenceIdeal
import proofs.«139369_j10900626997971_2_alg».proof.Proof.Gen.ReferenceIdeal.Run
import proofs.«139369_j10900626997971_2_alg».proof.Proof.Gen.ReferenceIdeal.Read
import proofs.«139369_j10900626997971_2_alg».proof.Proof.Gen.Pre_finite_inputs
import proofs.«139369_j10900626997971_2_alg».proof.Proof.KernelValue
import proofs.«139369_j10900626997971_2_alg».proof.Proof.RefBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run ends with its result at the kernel's function of the launched arguments; the reference's run
    ends with its result at the reference's composed term of ITS launched arguments, which agree with the kernel's,
    and that term is the same function. -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
